-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S12500x512 : Shape := ⟨2, ![12500, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S12500x512 : S_.BroadcastsInDim S12500x512 (![] : Fin 0 → Fin S12500x512.rank)
  reducesTo_S12500x512_S_d0_1 : S12500x512.ReducesTo [0, 1] S_

variable [Facts]

def fn {F : FTy → Type} [FloatOps F] (main_arg0 : FVec F S4096x512 .f32) (main_arg1 : FVec F S12500x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S12500x512 .f32 := Host.absf main_arg1
  let main_cst_0 : FVec F S_ .f32 := constant S_ .f32 0x7F800000#32
  let main_v5 : FVec F S12500x512 .f32 := broadcastInDim S12500x512 ![] bcast_S_S12500x512 main_cst_0
  let main_v6 : IVec S12500x512 1 := cmpf .olt main_v4 main_v5
  let main_c_1 : IVec S_ 1 := constantI S_ 1 1#1
  let main_v7 : IVec S_ 1 := (fun x v => Host.reduce IntOp.andi x v reducesTo_S12500x512_S_d0_1 h_S_) main_v6 main_c_1
  let main_v8 : IVec S_ 1 := andi main_v3 main_v7
  main_v8
-- ==== Kernel.lean ====
abbrev S4096x512 : Shape := ⟨2, ![4096, 512]⟩
abbrev S12500x512 : Shape := ⟨2, ![12500, 512]⟩
abbrev S4096x12500 : Shape := ⟨2, ![4096, 12500]⟩
abbrev S1024x512 : Shape := ⟨2, ![1024, 512]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S12500x512, .f32⟩
  | .hbm, ⟨2, _⟩ => ⟨S4096x12500, .f32⟩
  | .local _ .vmem, ⟨0, _⟩ => ⟨S4096x512, .f32⟩
  | .local _ .vmem, ⟨1, _⟩ => ⟨S1024x512, .f32⟩
  | .local _ .vmem, ⟨2, _⟩ => ⟨S1024x512, .f32⟩
  | .local _ .vmem, ⟨3, _⟩ => ⟨S4096x1024, .f32⟩
  | .local _ .vmem, ⟨4, _⟩ => ⟨S4096x1024, .f32⟩
  | .local _ .vmem, ⟨5, _⟩ => ⟨S4096x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S1024x512_S1024x512_0_0 : ∀ a, (![0, 0] : Fin 2 → Nat) a + S1024x512.size a ≤ S1024x512.size a
  h_S1024x512 : 0 < S1024x512.numel
  inb_S4096x1024_S4096x1024_0_0 : ∀ a, (![0, 0] : Fin 2 → Nat) a + S4096x1024.size a ≤ S4096x1024.size a
  h_S4096x1024 : 0 < S4096x1024.numel
  dot_S4096x512_S1024x512_S4096x1024_1_1_0_0_n_n_wf : DotDims.WF S4096x512 S1024x512 S4096x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S12500x512.size a
  hwx0_1 : ∀ i : grid0.Coords, EltTy.bits .f32 = 32 ∨ (Rect.unit (s := S12500x512) (fun a => cc0_transform_1 i a * S1024x512.size a) (fun a => (Pipeline.Clip.of (cc0_transform_1 i a) (S1024x512.size a) (S12500x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S12500x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x1024.size a < S4096x12500.size a
  hwx0_2 : ∀ i : grid0.Coords, EltTy.bits .f32 = 32 ∨ (Rect.unit (s := S4096x12500) (fun a => cc0_transform_2 i a * S4096x1024.size a) (fun a => (Pipeline.Clip.of (cc0_transform_2 i a) (S4096x1024.size a) (S4096x12500.size a)).extent (S4096x1024.size a)) fun a => Pipeline.Clip.inb (Pipeline.Clip.ok_of (hstart0_2 i a))).WholeWords (EltTy.packing .f32)
  hwxs0_2 : ∀ i : grid0.Coords, EltTy.bits .f32 = 32 ∨ (Rect.unit (s := S4096x1024) (fun _ => 0) (fun a => (Pipeline.Clip.of (cc0_transform_2 i a) (S4096x1024.size a) (S4096x12500.size a)).extent (S4096x1024.size a)) fun a => (Nat.zero_add _).trans_le (Pipeline.Clip.extent_le (Pipeline.Clip.ok_of (hstart0_2 i a)))).WholeWords (EltTy.packing .f32)

variable [Facts₀]

def dot_S4096x512_S1024x512_S4096x1024_1_1_0_0_n_n : DotDims S4096x512 S1024x512 S4096x1024 where
  lhsContracting := [1]
  rhsContracting := [1]
  lhsNonContracting := [0]
  rhsNonContracting := [0]
  lhsBatch := []
  rhsBatch := []
  wf := dot_S4096x512_S1024x512_S4096x1024_1_1_0_0_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S4096x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S12500x512 : Shape := ⟨2, ![12500, 512]⟩
abbrev S512x12500 : Shape := ⟨2, ![512, 12500]⟩
abbrev S4096x12500 : Shape := ⟨2, ![4096, 12500]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S12500x512, .f32⟩
  | .hbm, ⟨2, _⟩ => ⟨S512x12500, .f32⟩
  | .hbm, ⟨3, _⟩ => ⟨S4096x12500, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S12500x512_S512x12500_1_0 : S12500x512.Transposes [1, 0] S512x12500
  dot_S4096x512_S512x12500_S4096x12500_1_0_0_1_n_n_wf : DotDims.WF S4096x512 S512x12500 S4096x12500 [1] [0] [0] [1] [] []

variable [Facts₀]

def dot_S4096x512_S512x12500_S4096x12500_1_0_0_1_n_n : DotDims S4096x512 S512x12500 S4096x12500 where
  lhsContracting := [1]
  rhsContracting := [0]
  lhsNonContracting := [0]
  rhsNonContracting := [1]
  lhsBatch := []
  rhsBatch := []
  wf := dot_S4096x512_S512x12500_S4096x12500_1_0_0_1_n_n_wf

class Facts : Prop extends Facts₀ where

variable [Facts]
-- ==== Proof.LibWholeStore.lean ====
/-
  One store through the whole buffer, read back.

  A buffer seen through any view of shape `S`, after a single unmasked store through the rectangle that starts at
  offset zero on every axis and has the shape's own extents, reads back as that store's payload, whatever it held
  before: the rectangle's index set is all of `S`, so the store's one piece covers every index, and the canonical
  contents of a covering list of one piece is the piece's payload.
-/
import Idealize.ShloMosaic.Lib.Pipeline.FrameBody
import Idealize.ShloMosaic.Lib.Pipeline.Value

noncomputable section

namespace Idealize.ShloMosaic.View

variable {Val : EltTy → Type} [∀ e, Nonempty (Val e)] {S : Shape} {e : EltTy}

/-- After one store of `w` through the whole-shape rectangle at zero offsets, the view reads `w`. -/
theorem read_writes_whole_store {sig : RefSig} {κ : Kind} {sp : Space} (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w :=
  (read_writes_eq_canon v f _ (fun y => ⟨_, List.mem_singleton_self _, mem_set_unit_zero h inb y⟩)).trans
    (canon_unit_zero h inb w)

end Idealize.ShloMosaic.View

end
-- ==== Proof.RunBits.lean ====
/-
  The kernel body as two Hoare triples, one per way its one branch goes (read at any float instance; used at the word-level one).

  The body receives four whole buffers: the feature matrix's staging buffer (4096 x 512), the current weight
  block's (1024 x 512), the result block's (4096 x 1024) and a scratch of the feature matrix's shape in the narrow
  float format. At the grid's first point it casts the feature matrix into the scratch; at every point it then reads
  the scratch back, casts the weight block, multiplies the two contracting the 512-long feature axis of both into a
  zero accumulator, and stores the 4096 x 1024 product through the whole result buffer. So after the first point
  the result buffer holds the product of the cast features and the cast weight block and the scratch holds the cast
  features; after a later point the result buffer holds the product of WHATEVER THE SCRATCH HELD and the cast weight
  block, and the scratch is untouched. Both are stated over arbitrary whole buffers and arbitrary contents; the
  payload names are those of the program's skeleton (imported, generated).
-/
import proofs.«169436_g15315853377883_cont_week2b_655_19_alg».proof.Proof.Gen.Kernel.Frame
import proofs.«169436_g15315853377883_cont_week2b_655_19_alg».proof.Proof.Gen.Kernel.Skeleton
import Idealize.ShloMosaic.Lib.Pipeline.Value
import proofs.«169436_g15315853377883_cont_week2b_655_19_alg».proof.Proof.LibWholeStore
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The branch condition of the body, as the printed scalar chain over the grid coordinate: it asks whether the
    class coordinate of the point is zero. -/
abbrev cond0 (i : grid0.Coords) : Prop := (Scalar.cmpi .ne (Scalar.extui (Scalar.cmpi .eq (BitVec.ofNat 32 (i 0).val) 0#32)) 0#32) = 1#1
/-- Over the thirteen points of the grid it holds exactly at the first. -/
theorem hcond0 : ∀ t : Fin cfg0.N, cond0 (grid0.coords t) ↔ t.val = 0 :=
  (by decide +kernel : ∀ t : Fin grid0.N, cond0 (grid0.coords t) ↔ t.val = 0)

theorem zero_offsets : (![0, 0] : Fin 2 → Nat) = fun _ => 0 := funext fun a => by fin_cases a <;> rfl

/-- THE FIRST POINT. On whole buffers — the feature matrix's at `x0`, the weight block's at `x1`, the result's and the
    scratch at anything — the body casts the feature matrix into the scratch, reads it back, multiplies it by the cast
    weight block (contracting the feature axis of both) and stores the product whole: the result's buffer ends at
    `k0_pay2 (k0_pay1 x0) x1`, the scratch at `k0_pay1 x0`, the two inputs as they were. -/
theorem runFirst (c : Dev nD) (i : grid0.Coords)
    (arg1 : Memref sig .tc .vmem S4096x512 .f32) (harg1 : arg1.IsWhole)
    (arg2 : Memref sig .tc .vmem S1024x512 .f32) (harg2 : arg2.IsWhole)
    (arg3 : Memref sig .tc .vmem S4096x1024 .f32) (harg3 : arg3.IsWhole)
    (arg4 : Memref sig .tc .vmem S4096x512 .bf16) (harg4 : arg4.IsWhole)
    (hc : cond0 i) (x0 : Vec F S4096x512 .f32) (x1 : Vec F S1024x512 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay2 (k0_pay1 x0) x1)
            ∗ owns (c : Thread nD τ) arg4 fullShare (k0_pay1 x0)) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel
  unfold owns
  iintro ⟨⟨%f0, %hf0, H0⟩, ⟨%f1, %hf1, H1⟩, ⟨%d3, %f3, -, H3⟩, ⟨%d4, %f4, -, H4⟩, Hk⟩
  obtain rfl := harg1.eq_unread hf0; obtain rfl := harg2.eq_unread hf1
  have hz := zero_offsets
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    rw [View.read_writes_whole_store _ _ hz]
    sl_unfold_run_names
    rw [View.readCov_unit_zero _ hz]
    simp only [View.readAt_eq_ld, harg1.read_unread, harg2.read_unread]
    rw [View.ld_unit_zero (S := S4096x512) hz, View.ld_unit_zero (S := S1024x512) hz]
  · iexists _; isplitr
    swap; · iexact H4
    ipureintro
    sl_unfold_run_names
    rw [View.read_writes_whole_store _ _ hz]
    simp only [View.readAt_eq_ld, harg1.read_unread]
    rw [View.ld_unit_zero (S := S4096x512) hz]

/-- A LATER POINT. The scratch holds `xs` (what the first point left); the body skips the cast, reads the scratch,
    multiplies by the cast weight block and stores the product whole: the result's buffer ends at `k0_pay2 xs x1`,
    everything else as it was. -/
theorem runLater (c : Dev nD) (i : grid0.Coords)
    (arg1 : Memref sig .tc .vmem S4096x512 .f32) (harg1 : arg1.IsWhole)
    (arg2 : Memref sig .tc .vmem S1024x512 .f32) (harg2 : arg2.IsWhole)
    (arg3 : Memref sig .tc .vmem S4096x1024 .f32) (harg3 : arg3.IsWhole)
    (arg4 : Memref sig .tc .vmem S4096x512 .bf16) (harg4 : arg4.IsWhole)
    (hc : ¬cond0 i) (x0 : Vec F S4096x512 .f32) (x1 : Vec F S1024x512 .f32) (xs : Vec F S4096x512 .bf16)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k0_pay2 xs x1)
            ∗ owns (c : Thread nD τ) arg4 fullShare xs) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel
  unfold owns
  iintro ⟨⟨%f0, %hf0, H0⟩, ⟨%f1, %hf1, H1⟩, ⟨%d3, %f3, -, H3⟩, ⟨%f4, %hf4, H4⟩, Hk⟩
  obtain rfl := harg1.eq_unread hf0; obtain rfl := harg2.eq_unread hf1; obtain rfl := harg4.eq_unread hf4
  have hz := zero_offsets
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    rw [View.read_writes_whole_store _ _ hz]
    sl_unfold_run_names
    simp only [View.readAt_eq_ld, harg2.read_unread, harg4.read_unread]
    rw [View.ld_unit_zero (S := S4096x512) hz, View.ld_unit_zero (S := S1024x512) hz]
  · iexists _; isplitr; · ipureintro; exact harg4.read_unread _
    iexact H4

end Cert.Kernel.Hand

end
-- ==== Proof.ObligationBits.lean ====
/-
  The proof data of the pipelined call and the body's obligation at every grid point (the result window's contents left unnamed).

  The grid has thirteen points, one per 1024-wide stripe of the 12500 classes. The feature matrix's window is the
  whole 4096 x 512 array at every point (fetched once); the weight window's block at point t is rows
  1024 t .. 1024 t + 1023 of the 12500 x 512 weight array, of which the last block keeps only 212 rows inside the
  array; the result window's block at point t is columns 1024 t .. of the 4096 x 12500 result, cut the same way. For
  the two cut windows the obligation speaks only of the part of a staging buffer that a transfer moves; what lies
  past the array's end in a buffer is whatever the fetch left there and is never named.

  What is carried from point to point is the scratch: before the first point it holds anything, after it the cast
  feature matrix, which every later point reads and none overwrites. That is the tracked invariant.

  Nothing the frame claims reads the result array, so the result window is handed to the body at any contents and
  taken back at any contents.
-/
import proofs.«169436_g15315853377883_cont_week2b_655_19_alg».proof.Proof.Gen.Kernel.Frame
import proofs.«169436_g15315853377883_cont_week2b_655_19_alg».proof.Proof.Gen.Kernel.Skeleton
import Idealize.ShloMosaic.Lib.Pipeline.Value
import proofs.«169436_g15315853377883_cont_week2b_655_19_alg».proof.Proof.RunBits
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: the whole scoped buffer of the kernel's own. -/
abbrev scM : Memref sig .tc .vmem S4096x512 .bf16 := Memref.whole cc0_scratch0

/-- The class invariant (the scoped rest at anything, the generator register at some state), with the one scoped
    buffer that is no staging buffer — the scratch — spelled as a whole memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The result window (window 2) is the one whose contents the obligation does not name. -/
abbrev fgt : Fin cfg0.W → Bool := fun w => match w with | ⟨2, _⟩ => true | _ => false

/-! ## The proof data -/

/-- The cast feature matrix: what the first point stores into the scratch. -/
def xcast (c : Dev nD) : Vec F S4096x512 .bf16 := k0_pay1 (iblk m c 0 t0_0)

/-- The weight block of point `t`, filled out past the array's end with a word nothing reads. -/
def wblk (c : Dev nD) (t : Fin cfg0.N) : Vec F S1024x512 .f32 :=
  win0_1.fill (grid0.coords t) (fun _ => Scalar.ofBits .f32 0#32) (iblk m c 1 t)

/-- The result block of point `t`: the cast features times the cast weight block. -/
def oblk (c : Dev nD) (t : Fin cfg0.N) : Vec F S4096x1024 .f32 := k0_pay2 (xcast m c) (wblk m c t)

/-- The invariant before position `n`: before the first point the class's (the scratch at anything); afterwards the
    scratch at the cast feature matrix and the generator register at some state. -/
def PhiS (c : Dev nD) : ℕ → sProp 𝕄
  | 0 => Pipeline.ΦA spec0 c
  | _ + 1 => iprop(iprop(owns (c : Thread nD τ) scM fullShare (xcast m c)) ∗ (∃ r, prngReg c r))

theorem PhiS_pos (c : Dev nD) (n : ℕ) (h : n ≠ 0) :
    PhiS m c n = iprop(iprop(owns (c : Thread nD τ) scM fullShare (xcast m c)) ∗ (∃ r, prngReg c r)) := by
  cases n with
  | zero => exact absurd rfl h
  | succ n => rfl

/-- The proof data on core `c`: the arrays as the region finds them; after the body the feature buffer at its
    block, the weight buffer at its block (on the rows inside the array), the result buffer at the product; the
    tracked invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => oblk m c t
  Φ t := PhiS m c t.val
  q _ := fullShare
  owed _ := 0

/-- The feature buffer holds the feature matrix at every point, fetched there or not. -/
theorem before_0 (c : Dev nD) (t : Fin cfg0.N) (d) : (dats m 0 c).before 0 t d = iblk m c 0 t :=
  before0_0_of m (dats m 0 c) rfl (fun _ => rfl) t d

/-- The weight buffer is fetched at every point: it holds the block's rows inside the array, and past them what the
    fetch's overwrite left (`d`, anything). -/
theorem before_1 (c : Dev nD) (t : Fin cfg0.N) (d) :
    (dats m 0 c).before 1 t d = win0_1.fill (grid0.coords t) d (iblk m c 1 t) := by
  rw [Dat.before_fetched _ 1 t (fetch0_1 t)]; rfl

/-! ## The body at a generic point -/

/-- The body at any point, on what the pipeline hands it and for what it must hand back. At the first point the
    invariant gives the scratch at anything and takes it back at the cast feature matrix; at a later point it gives
    the scratch at the cast feature matrix and takes it back unchanged. The two input buffers come back as they
    were: the feature buffer whole, the weight buffer on its rows inside the array. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ X, owns (c : Thread nD τ) (st0_2 t) fullShare X))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare (win0_1.fill (grid0.coords t) d (win0_1.cut (grid0.coords t) ((dats m 0 c).after 1 t))))
            ∗ (∃ X, owns (c : Thread nD τ) (st0_2 t) fullShare X))) := by
  simp only [before_0, before_1]
  rw [show (dats m 0 c).owesAt () t.succ = (dats m 0 c).owesAt () t.castSucc from rfl,
    show (dats m 0 c).Φ t.succ = iprop(iprop(owns (c : Thread nD τ) scM fullShare (xcast m c)) ∗ (∃ r, prngReg c r)) from rfl,
    show (dats m 0 c).Φ t.castSucc = PhiS m c t.val from rfl,
    show (dats m 0 c).after 0 t = iblk m c 0 t from rfl,
    show (dats m 0 c).after 1 t = wblk m c t from rfl]
  have hw : win0_1.cut (grid0.coords t) (wblk m c t) = iblk m c 1 t := win0_1.cut_fill _ _ _
  rw [hw]
  by_cases hz : t.val = 0
  · obtain rfl : t = t0_0 := Fin.ext hz
    rw [show PhiS m c t0_0.val = Pipeline.ΦA spec0 c from rfl, PhiA_eq]
    iintro ⟨⟨HS, Hg⟩, Ho, ⟨%d0, H0⟩, ⟨%d1, H1⟩, ⟨%d2, H2⟩⟩
    iapply (runFirst c (grid0.coords t0_0) _ _ _ _ _ _ _ _ ((hcond0 t0_0).mpr rfl) (iblk m c 0 t0_0)
      (win0_1.fill (grid0.coords t0_0) d1 (iblk m c 1 t0_0)) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]
    · iexists d1; iexact H1
    · iexists _; iexact H2
  · rw [PhiS_pos m c t.val hz]
    iintro ⟨⟨HS, Hg⟩, Ho, ⟨%d0, H0⟩, ⟨%d1, H1⟩, ⟨%d2, H2⟩⟩
    iapply (runLater c (grid0.coords t) _ _ _ _ _ _ _ _ (fun h => hz ((hcond0 t).mp h)) (iblk m c 0 t)
      (win0_1.fill (grid0.coords t) d1 (iblk m c 1 t)) (xcast m c) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]
    · iexists d1; iexact H1
    · iexists _; iexact H2

/-- The library's body obligation, at every point. -/
theorem body_obligation (c : Dev nD) : BodyObligationLoose (dats (F := F) m 0 c) (defs₀ (F := F)) Variants.none () Set.univ fgt := fun t => by
  rw [bigSep_W0, bigSep_W0]
  exact sound_body m c t

/-- What the launch hands the region is the invariant before the first point. -/
theorem hin (c : Dev nD) : Pipeline.ΦA spec0 c ⊢ (dats m 0 c).Φ 0 := Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 13 from N_0]; decide), PhiA_eq]
  iintro ⟨HS, Hg⟩
  isplitl [HS]
  · iexists _; iexact HS
  iexact Hg

end Cert.Kernel.Hand

end
-- ==== Proof.FrameBits.lean ====
/-
  The frame of the word-level program: it runs to the end, faults nowhere, and leaves its two argument arrays as they
  were.

  The launch theorem for a pipelined call with a tracked scratch takes the body's obligation at every point and gives
  back, for every core, what each windowed array may hold after the last write-back. The result window is read
  relationally (nothing is said of it); the two argument windows are inputs, which no write-back touches, so each
  argument array ends at its contents on entry, which are its contents at launch.
-/
import proofs.«169436_g15315853377883_cont_week2b_655_19_alg».proof.Proof.ObligationBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]
variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates without a fault, every windowed array ending at contents the
    relational data allows and nothing else unscoped touched. -/
theorem run_main : θ_run defs (onTc (τ := τ) (main (F := F))) (s₀ m ρ)
    (RDat.FramePost cfg0 (fun c => (dats m 0 c).toRForget fgt) (V m)) :=
  Pipeline.RDat.θ_run_frame_track cfgs (0 : Fin 1) launch0 defs₀ Variants.none (fun c => (dats m 0 c).toRForget fgt) m ρ main
    (hbody := fun c => (body_obligation m c).toRForget)
    (hshare := fun c => (dats m 0 c).share_full fun _ => rfl) (howed := fun _ _ => rfl)
    (V := V m) (hmain := hmain m Variants.none) (hA := fun _ _ => rfl) (hin := hin m) (hout := hout m)

/-- THE FRAME, at any float instance: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(congrFun (RDat.ArrAt_in ((dats m 0 c).toRForget fgt) 0 rfl cfg0.N) _).mp ((h c).1 0),
     (congrFun (RDat.ArrAt_in ((dats m 0 c).toRForget fgt) 1 rfl cfg0.N) _).mp ((h c).1 1)⟩) (run_main m ρ)

end Cert.Kernel.Hand

end
-- ==== Proof.RunIdeal.lean ====
/-
  The kernel body as two Hoare triples, one per way its one branch goes (read at any float instance; used at the exact one).

  The body receives four whole buffers: the feature matrix's staging buffer (4096 x 512), the current weight
  block's (1024 x 512), the result block's (4096 x 1024) and a scratch of the feature matrix's shape in the narrow
  float format. At the grid's first point it casts the feature matrix into the scratch; at every point it then reads
  the scratch back, casts the weight block, multiplies the two contracting the 512-long feature axis of both into a
  zero accumulator, and stores the 4096 x 1024 product through the whole result buffer. So after the first point
  the result buffer holds the product of the cast features and the cast weight block and the scratch holds the cast
  features; after a later point the result buffer holds the product of WHATEVER THE SCRATCH HELD and the cast weight
  block, and the scratch is untouched. Both are stated over arbitrary whole buffers and arbitrary contents; the
  payload names are those of the program's skeleton (imported, generated).
-/
import proofs.«169436_g15315853377883_cont_week2b_655_19_alg».proof.Proof.Gen.KernelIdeal.Frame
import proofs.«169436_g15315853377883_cont_week2b_655_19_alg».proof.Proof.Gen.KernelIdeal.Skeleton
import Idealize.ShloMosaic.Lib.Pipeline.Value
import proofs.«169436_g15315853377883_cont_week2b_655_19_alg».proof.Proof.LibWholeStore
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The branch condition of the body, as the printed scalar chain over the grid coordinate: it asks whether the
    class coordinate of the point is zero. -/
abbrev cond0 (i : grid0.Coords) : Prop := (Scalar.cmpi .ne (Scalar.extui (Scalar.cmpi .eq (BitVec.ofNat 32 (i 0).val) 0#32)) 0#32) = 1#1
/-- Over the thirteen points of the grid it holds exactly at the first. -/
theorem hcond0 : ∀ t : Fin cfg0.N, cond0 (grid0.coords t) ↔ t.val = 0 :=
  (by decide +kernel : ∀ t : Fin grid0.N, cond0 (grid0.coords t) ↔ t.val = 0)

theorem zero_offsets : (![0, 0] : Fin 2 → Nat) = fun _ => 0 := funext fun a => by fin_cases a <;> rfl

/-- THE FIRST POINT. On whole buffers — the feature matrix's at `x0`, the weight block's at `x1`, the result's and the
    scratch at anything — the body casts the feature matrix into the scratch, reads it back, multiplies it by the cast
    weight block (contracting the feature axis of both) and stores the product whole: the result's buffer ends at
    `k0_pay2 (k0_pay1 x0) x1`, the scratch at `k0_pay1 x0`, the two inputs as they were. -/
theorem runFirst (c : Dev nD) (i : grid0.Coords)
    (arg1 : Memref sig .tc .vmem S4096x512 .f32) (harg1 : arg1.IsWhole)
    (arg2 : Memref sig .tc .vmem S1024x512 .f32) (harg2 : arg2.IsWhole)
    (arg3 : Memref sig .tc .vmem S4096x1024 .f32) (harg3 : arg3.IsWhole)
    (arg4 : Memref sig .tc .vmem S4096x512 .bf16) (harg4 : arg4.IsWhole)
    (hc : cond0 i) (x0 : Vec F S4096x512 .f32) (x1 : Vec F S1024x512 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k0_pay2 (k0_pay1 x0) x1)
            ∗ owns (c : Thread nD τ) arg4 fullShare (k0_pay1 x0)) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel
  unfold owns
  iintro ⟨⟨%f0, %hf0, H0⟩, ⟨%f1, %hf1, H1⟩, ⟨%d3, %f3, -, H3⟩, ⟨%d4, %f4, -, H4⟩, Hk⟩
  obtain rfl := harg1.eq_unread hf0; obtain rfl := harg2.eq_unread hf1
  have hz := zero_offsets
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    rw [View.read_writes_whole_store _ _ hz]
    sl_unfold_run_names
    rw [View.readCov_unit_zero _ hz]
    simp only [View.readAt_eq_ld, harg1.read_unread, harg2.read_unread]
    rw [View.ld_unit_zero (S := S4096x512) hz, View.ld_unit_zero (S := S1024x512) hz]
  · iexists _; isplitr
    swap; · iexact H4
    ipureintro
    sl_unfold_run_names
    rw [View.read_writes_whole_store _ _ hz]
    simp only [View.readAt_eq_ld, harg1.read_unread]
    rw [View.ld_unit_zero (S := S4096x512) hz]

/-- A LATER POINT. The scratch holds `xs` (what the first point left); the body skips the cast, reads the scratch,
    multiplies by the cast weight block and stores the product whole: the result's buffer ends at `k0_pay2 xs x1`,
    everything else as it was. -/
theorem runLater (c : Dev nD) (i : grid0.Coords)
    (arg1 : Memref sig .tc .vmem S4096x512 .f32) (harg1 : arg1.IsWhole)
    (arg2 : Memref sig .tc .vmem S1024x512 .f32) (harg2 : arg2.IsWhole)
    (arg3 : Memref sig .tc .vmem S4096x1024 .f32) (harg3 : arg3.IsWhole)
    (arg4 : Memref sig .tc .vmem S4096x512 .bf16) (harg4 : arg4.IsWhole)
    (hc : ¬cond0 i) (x0 : Vec F S4096x512 .f32) (x1 : Vec F S1024x512 .f32) (xs : Vec F S4096x512 .bf16)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ owns (c : Thread nD τ) arg3 fullShare (k0_pay2 xs x1)
            ∗ owns (c : Thread nD τ) arg4 fullShare xs) -∗ K ⟨⟩))
      ⊢ wp frame (wpE (defs₀ (F := F)) Variants.none c none) E (cc0__mm_body i arg1 harg1 arg2 harg2 arg3 harg3 arg4 harg4) K := by
  simp only [cc0__mm_body_eq_skeleton]; unfold cc0__mm_body_skel
  unfold owns
  iintro ⟨⟨%f0, %hf0, H0⟩, ⟨%f1, %hf1, H1⟩, ⟨%d3, %f3, -, H3⟩, ⟨%f4, %hf4, H4⟩, Hk⟩
  obtain rfl := harg1.eq_unread hf0; obtain rfl := harg2.eq_unread hf1; obtain rfl := harg4.eq_unread hf4
  have hz := zero_offsets
  sl_exec (disch := exact hc)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    rw [View.read_writes_whole_store _ _ hz]
    sl_unfold_run_names
    simp only [View.readAt_eq_ld, harg2.read_unread, harg4.read_unread]
    rw [View.ld_unit_zero (S := S4096x512) hz, View.ld_unit_zero (S := S1024x512) hz]
  · iexists _; isplitr; · ipureintro; exact harg4.read_unread _
    iexact H4

end Cert.KernelIdeal.Hand

end
-- ==== Proof.ObligationIdeal.lean ====
/-
  The proof data of the pipelined call and the body's obligation at every grid point.

  The grid has thirteen points, one per 1024-wide stripe of the 12500 classes. The feature matrix's window is the
  whole 4096 x 512 array at every point (fetched once); the weight window's block at point t is rows
  1024 t .. 1024 t + 1023 of the 12500 x 512 weight array, of which the last block keeps only 212 rows inside the
  array; the result window's block at point t is columns 1024 t .. of the 4096 x 12500 result, cut the same way. For
  the two cut windows the obligation speaks only of the part of a staging buffer that a transfer moves; what lies
  past the array's end in a buffer is whatever the fetch left there and is never named.

  What is carried from point to point is the scratch: before the first point it holds anything, after it the cast
  feature matrix, which every later point reads and none overwrites. That is the tracked invariant.

  The result buffer after point t holds the product of the cast feature matrix with the cast weight block. Its
  columns inside the array depend only on the weight block's rows inside the array — a property of the float
  instance's matrix product (`RowLocal`) that this module assumes and the exact instance provides elsewhere.
-/
import proofs.«169436_g15315853377883_cont_week2b_655_19_alg».proof.Proof.Gen.KernelIdeal.Frame
import proofs.«169436_g15315853377883_cont_week2b_655_19_alg».proof.Proof.Gen.KernelIdeal.Skeleton
import Idealize.ShloMosaic.Lib.Pipeline.Value
import proofs.«169436_g15315853377883_cont_week2b_655_19_alg».proof.Proof.RunIdeal
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand: the whole scoped buffer of the kernel's own. -/
abbrev scM : Memref sig .tc .vmem S4096x512 .bf16 := Memref.whole cc0_scratch0

/-- The class invariant (the scoped rest at anything, the generator register at some state), with the one scoped
    buffer that is no staging buffer — the scratch — spelled as a whole memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The matrix product's columns inside the result array do not depend on what the weight buffer holds past the weight
    array's end: for any point, any left operand and any two fillings of the weight block, the cut result blocks agree. -/
def RowLocal (F : FTy → Type) [FloatOps F] : Prop :=
  ∀ (t : Fin cfg0.N) (xs : Vec F S4096x512 .bf16) (B : (win0_1.xblock (grid0.coords t)).Idx → Elt F .f32)
    (d d' : Vec F S1024x512 .f32),
    win0_2.cut (grid0.coords t) (k0_pay2 xs (win0_1.fill (grid0.coords t) d B))
      = win0_2.cut (grid0.coords t) (k0_pay2 xs (win0_1.fill (grid0.coords t) d' B))

/-! ## The proof data -/

/-- The cast feature matrix: what the first point stores into the scratch. -/
def xcast (c : Dev nD) : Vec F S4096x512 .bf16 := k0_pay1 (iblk m c 0 t0_0)

/-- The weight block of point `t`, filled out past the array's end with a word nothing reads. -/
def wblk (c : Dev nD) (t : Fin cfg0.N) : Vec F S1024x512 .f32 :=
  win0_1.fill (grid0.coords t) (fun _ => Scalar.ofBits .f32 0#32) (iblk m c 1 t)

/-- The result block of point `t`: the cast features times the cast weight block. -/
def oblk (c : Dev nD) (t : Fin cfg0.N) : Vec F S4096x1024 .f32 := k0_pay2 (xcast m c) (wblk m c t)

/-- The invariant before position `n`: before the first point the class's (the scratch at anything); afterwards the
    scratch at the cast feature matrix and the generator register at some state. -/
def PhiS (c : Dev nD) : ℕ → sProp 𝕄
  | 0 => Pipeline.ΦA spec0 c
  | _ + 1 => iprop(iprop(owns (c : Thread nD τ) scM fullShare (xcast m c)) ∗ (∃ r, prngReg c r))

theorem PhiS_pos (c : Dev nD) (n : ℕ) (h : n ≠ 0) :
    PhiS m c n = iprop(iprop(owns (c : Thread nD τ) scM fullShare (xcast m c)) ∗ (∃ r, prngReg c r)) := by
  cases n with
  | zero => exact absurd rfl h
  | succ n => rfl

/-- The proof data on core `c`: the arrays as the region finds them; after the body the feature buffer at its
    block, the weight buffer at its block (on the rows inside the array), the result buffer at the product; the
    tracked invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t
    | ⟨2, _⟩ => oblk m c t
  Φ t := PhiS m c t.val
  q _ := fullShare
  owed _ := 0

/-- The feature buffer holds the feature matrix at every point, fetched there or not. -/
theorem before_0 (c : Dev nD) (t : Fin cfg0.N) (d) : (dats m 0 c).before 0 t d = iblk m c 0 t :=
  before0_0_of m (dats m 0 c) rfl (fun _ => rfl) t d

/-- The weight buffer is fetched at every point: it holds the block's rows inside the array, and past them what the
    fetch's overwrite left (`d`, anything). -/
theorem before_1 (c : Dev nD) (t : Fin cfg0.N) (d) :
    (dats m 0 c).before 1 t d = win0_1.fill (grid0.coords t) d (iblk m c 1 t) := by
  rw [Dat.before_fetched _ 1 t (fetch0_1 t)]; rfl

/-- The result's buffer is fresh at every point (the point before wrote it back): it holds anything. -/
theorem before_2 (c : Dev nD) (t : Fin cfg0.N) (d) : (dats m 0 c).before 2 t d = d :=
  Dat.before_out_reset _ 2 rfl t
    (by by_cases h : t.val = 0
        · exact .inl h
        · exact .inr ⟨h, flush0_2 _⟩) d

/-! ## The body at a generic point -/

/-- The body at any point, on what the pipeline hands it and for what it must hand back. At the first point the
    invariant gives the scratch at anything and takes it back at the cast feature matrix; at a later point it gives
    the scratch at the cast feature matrix and takes it back unchanged. The two input buffers come back as they
    were: the feature buffer whole, the weight buffer on its rows inside the array. The result buffer comes back
    at the product with the weight buffer AS FOUND, whose part inside the array is the named product's (\`RowLocal\`). -/
theorem sound_body (hloc : RowLocal F) (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare (win0_1.fill (grid0.coords t) d (win0_1.cut (grid0.coords t) ((dats m 0 c).after 1 t))))
            ∗ (∃ d, owns (c : Thread nD τ) (st0_2 t) fullShare (win0_2.fill (grid0.coords t) d (win0_2.cut (grid0.coords t) ((dats m 0 c).after 2 t)))))) := by
  simp only [before_0, before_1, before_2]
  rw [show (dats m 0 c).owesAt () t.succ = (dats m 0 c).owesAt () t.castSucc from rfl,
    show (dats m 0 c).Φ t.succ = iprop(iprop(owns (c : Thread nD τ) scM fullShare (xcast m c)) ∗ (∃ r, prngReg c r)) from rfl,
    show (dats m 0 c).Φ t.castSucc = PhiS m c t.val from rfl,
    show (dats m 0 c).after 0 t = iblk m c 0 t from rfl,
    show (dats m 0 c).after 1 t = wblk m c t from rfl,
    show (dats m 0 c).after 2 t = oblk m c t from rfl]
  have hw : win0_1.cut (grid0.coords t) (wblk m c t) = iblk m c 1 t := win0_1.cut_fill _ _ _
  rw [hw]
  by_cases hz : t.val = 0
  · obtain rfl : t = t0_0 := Fin.ext hz
    rw [show PhiS m c t0_0.val = Pipeline.ΦA spec0 c from rfl, PhiA_eq]
    iintro ⟨⟨HS, Hg⟩, Ho, ⟨%d0, H0⟩, ⟨%d1, H1⟩, ⟨%d2, H2⟩⟩
    iapply (runFirst c (grid0.coords t0_0) _ _ _ _ _ _ _ _ ((hcond0 t0_0).mpr rfl) (iblk m c 0 t0_0)
      (win0_1.fill (grid0.coords t0_0) d1 (iblk m c 1 t0_0)) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]
    · iexists d1; iexact H1
    · iexists (k0_pay2 (k0_pay1 (iblk m c 0 t0_0)) (win0_1.fill (grid0.coords t0_0) d1 (iblk m c 1 t0_0)))
      erw [show oblk m c t0_0 = k0_pay2 (k0_pay1 (iblk m c 0 t0_0))
            (win0_1.fill (grid0.coords t0_0) (fun _ => Scalar.ofBits .f32 0#32) (iblk m c 1 t0_0)) from rfl,
        win0_2.fill_congr_cut (grid0.coords t0_0)
          (hloc t0_0 (k0_pay1 (iblk m c 0 t0_0)) (iblk m c 1 t0_0) d1 (fun _ => Scalar.ofBits .f32 0#32))]
      iexact H2
  · rw [PhiS_pos m c t.val hz]
    iintro ⟨⟨HS, Hg⟩, Ho, ⟨%d0, H0⟩, ⟨%d1, H1⟩, ⟨%d2, H2⟩⟩
    iapply (runLater c (grid0.coords t) _ _ _ _ _ _ _ _ (fun h => hz ((hcond0 t).mp h)) (iblk m c 0 t)
      (win0_1.fill (grid0.coords t) d1 (iblk m c 1 t)) (xcast m c) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]
    · iexists d1; iexact H1
    · iexists (k0_pay2 (xcast m c) (win0_1.fill (grid0.coords t) d1 (iblk m c 1 t)))
      erw [show oblk m c t = k0_pay2 (xcast m c)
            (win0_1.fill (grid0.coords t) (fun _ => Scalar.ofBits .f32 0#32) (iblk m c 1 t)) from rfl,
        win0_2.fill_congr_cut (grid0.coords t)
          (hloc t (xcast m c) (iblk m c 1 t) d1 (fun _ => Scalar.ofBits .f32 0#32))]
      iexact H2

/-- The library's body obligation, at every point. -/
theorem body_obligation (hloc : RowLocal F) (c : Dev nD) : BodyObligationLoose (dats (F := F) m 0 c) (defs₀ (F := F)) Variants.none () Set.univ := fun t => by
  rw [bigSep_W0, bigSep_W0]
  exact sound_body m hloc c t

/-- What the launch hands the region is the invariant before the first point. -/
theorem hin (c : Dev nD) : Pipeline.ΦA spec0 c ⊢ (dats m 0 c).Φ 0 := Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c cfg0.N (by rw [show cfg0.N = 13 from N_0]; decide), PhiA_eq]
  iintro ⟨HS, Hg⟩
  isplitl [HS]
  · iexists _; iexact HS
  iexact Hg

end Cert.KernelIdeal.Hand

end
-- ==== Proof.MatmulIdeal.lean ====
/-
  The body's arithmetic at the exact instance, read at an index.

  At the exact instance a change of float format is the identity, so the scratch holds the feature matrix itself, and
  the matrix product into a zero accumulator is the plain sum: entry (r, q) of a result block is the sum over the 512
  features k of the left operand at (r, k) times the weight buffer at (q, k) — both operands are contracted on their
  second axis. An entry of the result block therefore reads only row q of the weight buffer; the columns of a result
  block that lie inside the result array (q below the block's cut width) read only weight rows that lie inside the
  weight array (the two windows are cut at the same width, 12500 - 1024 t), which the fetch filled with the array's
  rows whatever the buffer held before. That is the row-locality the body obligation assumed.
-/
import proofs.«169436_g15315853377883_cont_week2b_655_19_alg».proof.Proof.ObligationIdeal
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- The product's dimension record: features (4096 x 512) times weight block (1024 x 512), both contracted on axis 1. -/
abbrev DD := dot_S4096x512_S1024x512_S4096x1024_1_1_0_0_n_n

theorem lhs_row (i : S4096x1024.Idx) (q : DD.contr.Idx) : (DD.lhsIdx i q 0).val = (i 0).val := by
  unfold DotDims.lhsIdx
  rw [dif_neg (show ¬(0 : Fin S4096x512.rank) ∈ DD.lhsBatch by decide), dif_pos (show (0 : Fin S4096x512.rank) ∈ DD.lhsNonContracting by decide)]
  rfl
theorem lhs_feat (i : S4096x1024.Idx) (q : DD.contr.Idx) : (DD.lhsIdx i q 1).val = (q ⟨0, by decide⟩).val :=
  DD.lhsIdx_val_of_single rfl i q
theorem rhs_row (i : S4096x1024.Idx) (q : DD.contr.Idx) : (DD.rhsIdx i q 0).val = (i 1).val := by
  unfold DotDims.rhsIdx
  rw [dif_neg (show ¬(0 : Fin S1024x512.rank) ∈ DD.rhsBatch by decide), dif_pos (show (0 : Fin S1024x512.rank) ∈ DD.rhsNonContracting by decide)]
  rfl
theorem rhs_feat (i : S4096x1024.Idx) (q : DD.contr.Idx) : (DD.rhsIdx i q 1).val = (q ⟨0, by decide⟩).val :=
  DD.rhsIdx_val_of_single rfl i q

/-- The cast into the scratch is the identity at the exact instance. -/
theorem pay1_eq (x : Vec Ideal S4096x512 .f32) : k0_pay1 (F := Ideal) x = x := by
  unfold k0_pay1
  dsimp only
  rw [shapeCast_self]
  rfl

/-- The product payload at an index: the sum over the features of left row times weight row. -/
theorem pay2_apply (xs : Vec Ideal S4096x512 .bf16) (wb : Vec Ideal S1024x512 .f32) (j : S4096x1024.Idx) :
    k0_pay2 (F := Ideal) xs wb j
      = ∑ k : Fin 512, (xs (ix2 (n0 := 4096) (n1 := 512) (j 0) k) : EReal) * (wb (ix2 (n0 := 1024) (n1 := 512) (j 1) k) : EReal) := by
  unfold k0_pay2
  simp only [matmul]
  rw [Ideal.matmul_constant_zero_apply, ← Equiv.sum_comp (contrEquiv1 DD 512 rfl rfl).symm]
  refine Finset.sum_congr rfl fun k _ => ?_
  have hk := contrEquiv1_symm_val DD 512 rfl rfl k
  have el : DD.lhsIdx j ((contrEquiv1 DD 512 rfl rfl).symm k) = ix2 (n0 := 4096) (n1 := 512) (j 0) k := funext fun a => Fin.ext (by
    match a with
    | ⟨0, _⟩ => exact lhs_row _ _
    | ⟨1, _⟩ => exact (lhs_feat _ _).trans hk)
  have er : DD.rhsIdx j ((contrEquiv1 DD 512 rfl rfl).symm k) = ix2 (n0 := 1024) (n1 := 512) (j 1) k := funext fun a => Fin.ext (by
    match a with
    | ⟨0, _⟩ => exact rhs_row _ _
    | ⟨1, _⟩ => exact (rhs_feat _ _).trans hk)
  rw [el, er]
  rfl

/-- The two cut windows are cut alike, and the weight window is not cut along the features: at every point the result
    block's width inside the array is the weight block's height inside the array, and a weight block has all 512
    features. -/
theorem cut_widths : ∀ t : Fin cfg0.N,
    win0_2.xsize (grid0.coords t) 1 = win0_1.xsize (grid0.coords t) 0 ∧ win0_1.xsize (grid0.coords t) 1 = 512 :=
  (by decide +kernel : ∀ t : Fin grid0.N,
    win0_2.xsize (grid0.coords t) 1 = win0_1.xsize (grid0.coords t) 0 ∧ win0_1.xsize (grid0.coords t) 1 = 512)

/-- A weight-buffer entry in a row the fetch filled is the fetched block's entry, whatever the buffer held. -/
theorem fill_row (t : Fin cfg0.N) (B : (win0_1.xblock (grid0.coords t)).Idx → Elt Ideal .f32) (d d' : Vec Ideal S1024x512 .f32)
    (q : Fin 1024) (k : Fin 512) (hq : q.val < win0_1.xsize (grid0.coords t) 0) :
    win0_1.fill (grid0.coords t) d B (ix2 (n0 := 1024) (n1 := 512) q k)
      = win0_1.fill (grid0.coords t) d' B (ix2 (n0 := 1024) (n1 := 512) q k) := by
  have hm : win0_1.moved (grid0.coords t) (ix2 (n0 := 1024) (n1 := 512) q k) = true :=
    (win0_1.moved_iff _ _).mpr fun a => by
      match a with
      | ⟨0, _⟩ => exact hq
      | ⟨1, _⟩ => show k.val < win0_1.xsize (grid0.coords t) 1; rw [(cut_widths t).2]; exact k.isLt
  unfold Pipeline.Window.fill
  rw [dif_pos hm, dif_pos hm]

/-- ROW-LOCALITY at the exact instance. -/
theorem rowLocal : RowLocal Ideal := by
  intro t xs B d d'
  funext y
  show k0_pay2 (F := Ideal) xs (win0_1.fill (grid0.coords t) d B) (win0_2.xinj (grid0.coords t) y)
    = k0_pay2 (F := Ideal) xs (win0_1.fill (grid0.coords t) d' B) (win0_2.xinj (grid0.coords t) y)
  rw [pay2_apply, pay2_apply]
  refine Finset.sum_congr rfl fun k _ => ?_
  congr 1
  exact fill_row t B d d' _ k (by
    show (y 1).val < win0_1.xsize (grid0.coords t) 0
    rw [← (cut_widths t).1]; exact (y 1).isLt)

end Cert.KernelIdeal.Hand

end
-- ==== Proof.Spec.lean ====
/-
  The specification: the logits of 4096 samples against 12500 classes.

  Entry (r, j) of the result is the inner product, over the 512 features k, of sample r's feature row and class j's
  weight row: the sum of x(r, k) * w(j, k). Both programs are shown to end with their result array at this one
  function of their two argument arrays, over the extended reals.
-/
import Idealize.ShloMosaic.PureOps.Ideal
import Idealize.ShloMosaic.Lib.ValueIdx

noncomputable section

namespace Cert.Spec

open Idealize.ShloMosaic

/-- Where entry `i` of the result reads the feature matrix for feature `k`: row `i 0`, column `k`. -/
abbrev xAt (i : (⟨2, ![4096, 12500]⟩ : Shape).Idx) (k : Fin 512) : (⟨2, ![4096, 512]⟩ : Shape).Idx := fun a => match a with
  | ⟨0, _⟩ => ⟨(i 0).val, (i 0).isLt⟩
  | ⟨1, _⟩ => ⟨k.val, k.isLt⟩

/-- Where it reads the weight matrix: row `i 1` (the class), column `k`. -/
abbrev wAt (i : (⟨2, ![4096, 12500]⟩ : Shape).Idx) (k : Fin 512) : (⟨2, ![12500, 512]⟩ : Shape).Idx := fun a => match a with
  | ⟨0, _⟩ => ⟨(i 1).val, (i 1).isLt⟩
  | ⟨1, _⟩ => ⟨k.val, k.isLt⟩

/-- The logits. -/
def logits (x : (⟨2, ![4096, 512]⟩ : Shape).Idx → EReal) (w : (⟨2, ![12500, 512]⟩ : Shape).Idx → EReal) :
    (⟨2, ![4096, 12500]⟩ : Shape).Idx → EReal :=
  fun i => ∑ k : Fin 512, x (xAt i k) * w (wAt i k)

end Cert.Spec

end
-- ==== Proof.ValueIdeal.lean ====
/-
  The idealized kernel's run, read: its result array ends at the logits of its two argument arrays.

  At point t the pipeline writes back the columns of the result block that lie inside the array: for a row r and a
  column q below the block's cut width, the entry is the sum over the features k of the scratch at (r, k) times the
  weight buffer at (q, k). The scratch holds the feature matrix (the cast is the identity here, and the feature
  window's one block is the whole array), and row q of the weight buffer is row 1024 t + q of the weight array. The
  entry lands at (r, 1024 t + q) of the result, where the logits read exactly x(r, k) and w(1024 t + q, k). Every
  column j of the result lies in the block of point j / 1024, so the thirteen write-backs cover the array, and an
  array covered by blocks of one function ends at that function.
-/
import proofs.«169436_g15315853377883_cont_week2b_655_19_alg».proof.Proof.MatmulIdeal
import proofs.«169436_g15315853377883_cont_week2b_655_19_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The run and the frame -/

-- the launch theorem's implicit arguments are found by unifying its conclusion with this statement, which takes
-- unfolding plain definitions in a metavariable's type
set_option backward.isDefEq.respectTransparency.types false in
/-- Every weakly fair execution of @main terminates without a fault, every windowed array ending at what the proof
    data computes (an input its entry contents, the result its entry contents overwritten by each point's block). -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m rowLocal c)
    (hshare := fun c => (dats m 0 c).share_full fun _ => rfl) (howed := fun _ _ => rfl)
    (V := V m) (hmain := hmain m Variants.none) (hA := fun _ _ => rfl) (hin := hin m) (hout := hout m)

/-- THE FRAME of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (fun _ _ => rfl) (run_main m ρ)

/-! ## The blocks as rows of the arguments -/

/-- Which block each window is on at point `t`, and how wide the result block is inside the array. -/
theorem block_indices : ∀ t : Fin cfg0.N,
    win0_0.index t 0 = 0 ∧ win0_0.index t 1 = 0 ∧ win0_1.index t 0 = t.val ∧ win0_1.index t 1 = 0
      ∧ win0_2.index t 0 = 0 ∧ win0_2.index t 1 = t.val
      ∧ win0_2.xsize (grid0.coords t) 0 = 4096 ∧ win0_2.xsize (grid0.coords t) 1 = min 1024 (12500 - 1024 * t.val) :=
  (by decide +kernel : ∀ t : Fin grid0.N,
    win0_0.index t 0 = 0 ∧ win0_0.index t 1 = 0 ∧ win0_1.index t 0 = t.val ∧ win0_1.index t 1 = 0
      ∧ win0_2.index t 0 = 0 ∧ win0_2.index t 1 = t.val
      ∧ win0_2.xsize (grid0.coords t) 0 = 4096 ∧ win0_2.xsize (grid0.coords t) 1 = min 1024 (12500 - 1024 * t.val))

/-- The feature window's block is the whole feature matrix, at every point. -/
theorem xblk_apply (c : Dev nD) (t : Fin cfg0.N) (p k' : S4096x512.Idx)
    (h0 : (k' 0).val = (p 0).val) (h1 : (k' 1).val = (p 1).val) :
    (iblk m c 0 t : Vec Ideal S4096x512 .f32) p = (m ((c : Thread nD τ).loc main_arg0) : S4096x512.Idx → Elt Ideal .f32) k' := by
  obtain ⟨i00, i01, -⟩ := block_indices t
  unfold iblk
  rw [View.read_apply]
  show V m c main_arg0 _ = m (c.tc.loc main_arg0) _
  unfold V
  congr 1
  funext a
  apply Fin.ext
  match a with
  | ⟨0, _⟩ => show win0_0.index t 0 * 4096 + 1 * (p 0).val = (k' 0).val; rw [i00, h0]; omega
  | ⟨1, _⟩ => show win0_0.index t 1 * 512 + 1 * (p 1).val = (k' 1).val; rw [i01, h1]; omega

/-- The weight window's block at point `t` is rows 1024 t .. of the weight matrix (those inside the array). -/
theorem wrow_apply (c : Dev nD) (t : Fin cfg0.N) (y : (win0_1.xblock (grid0.coords t)).Idx) (k' : S12500x512.Idx)
    (h0 : (k' 0).val = 1024 * t.val + (y 0).val) (h1 : (k' 1).val = (y 1).val) :
    iblk m c 1 t y = (m ((c : Thread nD τ).loc main_arg1) : S12500x512.Idx → Elt Ideal .f32) k' := by
  obtain ⟨-, -, i10, i11, -⟩ := block_indices t
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (k' 0).val; rw [i10, h0]; omega
  | ⟨1, _⟩ => show win0_1.index t 1 * 512 + 1 * (y 1).val = (k' 1).val; rw [i11, h1]; omega

/-- A row of the filled-out weight block that the fetch filled is that row of the weight matrix. -/
theorem wblk_apply (c : Dev nD) (t : Fin cfg0.N) (q : Fin 1024) (k : Fin 512) (hq : q.val < win0_1.xsize (grid0.coords t) 0)
    (k' : S12500x512.Idx) (h0 : (k' 0).val = 1024 * t.val + q.val) (h1 : (k' 1).val = k.val) :
    wblk m c t (ix2 (n0 := 1024) (n1 := 512) q k) = (m ((c : Thread nD τ).loc main_arg1) : S12500x512.Idx → Elt Ideal .f32) k' := by
  have hm : win0_1.moved (grid0.coords t) (ix2 (n0 := 1024) (n1 := 512) q k) = true :=
    (win0_1.moved_iff _ _).mpr fun a => by
      match a with
      | ⟨0, _⟩ => exact hq
      | ⟨1, _⟩ => show k.val < win0_1.xsize (grid0.coords t) 1; rw [(cut_widths t).2]; exact k.isLt
  unfold wblk Pipeline.Window.fill
  rw [dif_pos hm]
  exact wrow_apply m c t _ k' h0 h1

/-! ## The result array -/

/-- The logits of the two argument arrays as launched. -/
def G (c : Dev nD) : Buf (Elt Ideal) ((c : Thread nD τ).loc main_v0) :=
  Cert.Spec.logits (m ((c : Thread nD τ).loc main_arg0)) (m ((c : Thread nD τ).loc main_arg1))

/-- What point `t` writes back is its block of the logits. -/
theorem flushed_eq (c : Dev nD) (t : Fin cfg0.N) :
    (dats m 0 c).flushed 2 t = ((cfg0.win 2).blk t).view.read (Elt Ideal) (G m c) := by
  obtain ⟨-, -, -, -, i20, i21, -, -⟩ := block_indices t
  funext y
  rw [View.read_apply]
  show k0_pay2 (F := Ideal) (xcast m c) (wblk m c t) (win0_2.xinj (grid0.coords t) y)
    = Cert.Spec.logits (m ((c : Thread nD τ).loc main_arg0)) (m ((c : Thread nD τ).loc main_arg1)) ((win0_2.blk t).view.emb y)
  rw [pay2_apply]
  unfold Cert.Spec.logits
  refine Finset.sum_congr rfl fun k _ => ?_
  congr 1
  · unfold xcast
    rw [pay1_eq]
    refine xblk_apply m c t0_0 _ _ ?_ rfl
    show win0_2.index t 0 * 4096 + 1 * (y 0).val = (y 0).val
    rw [i20]; omega
  · refine wblk_apply m c t _ k ?_ _ ?_ rfl
    · show (y 1).val < win0_1.xsize (grid0.coords t) 0
      rw [← (cut_widths t).1]; exact (y 1).isLt
    · show win0_2.index t 1 * 1024 + 1 * (y 1).val = 1024 * t.val + (y 1).val
      rw [i21]; omega

/-- Every entry of the result array lies in the block of the point that owns its column. -/
theorem covered (i : S4096x12500.Idx) :
    ∃ t : Fin cfg0.N, (cfg0.win 2).flush t = true ∧ i ∈ ((cfg0.win 2).blk t).view.set := by
  have h0 : (i 0).val < 4096 := idx2_lt0 i
  have h1 : (i 1).val < 12500 := idx2_lt1 i
  have hN : cfg0.N = 13 := N_0
  obtain ⟨t, htv⟩ : ∃ t : Fin cfg0.N, t.val = (i 1).val / 1024 := ⟨⟨(i 1).val / 1024, by rw [hN]; omega⟩, rfl⟩
  refine ⟨t, flush0_2 t, ?_⟩
  obtain ⟨-, -, -, -, i20, i21, s20, s21⟩ := block_indices t
  show i ∈ ((View.whole main_v0).slice (win0_2.rect t)).set
  rw [View.set_slice_whole, Rect.mem_set_unit]
  intro a
  match a with
  | ⟨0, _⟩ =>
    show win0_2.index t 0 * 4096 ≤ (i 0 : Nat) ∧ (i 0 : Nat) < win0_2.index t 0 * 4096 + win0_2.xsize (grid0.coords t) 0
    rw [i20, s20]; omega
  | ⟨1, _⟩ =>
    show win0_2.index t 1 * 1024 ≤ (i 1 : Nat) ∧ (i 1 : Nat) < win0_2.index t 1 * 1024 + win0_2.xsize (grid0.coords t) 1
    rw [i21, s21, htv]; omega

/-- So the result array ends at the logits. -/
theorem final (c : Dev nD) : (dats m 0 c).arrAt 2 cfg0.N = G m c :=
  (dats m 0 c).arrAt_eq_of_cover 2 (G m c) (fun t _ => flushed_eq m c t) covered

/-- THE RUN, READ: the result array at the logits of the arguments, the arguments unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (final m c),
     ((h c).1 0).trans ((dats m 0 c).arrAt_in 0 rfl _),
     ((h c).1 1).trans ((dats m 0 c).arrAt_in 1 rfl _)⟩) (run_main m ρ)

end Cert.KernelIdeal.Hand

end
-- ==== Proof.Reference.lean ====
/-
  The reference's result is the specification.

  The reference transposes the weight matrix and contracts the feature matrix's second axis with the transposed
  matrix's first: entry (r, j) is the sum over k of x(r, k) times the transpose at (k, j), and the transpose at (k, j)
  is w(j, k). That is the logits, index by index. The two stages and their reads at an index are the imported
  (generated) ones; written here is only that their composed index functions are the specification's.
-/
import proofs.«169436_g15315853377883_cont_week2b_655_19_alg».proof.Proof.Gen.ReferenceIdeal.Read
import proofs.«169436_g15315853377883_cont_week2b_655_19_alg».proof.Proof.Spec

noncomputable section

namespace Cert.ReferenceIdeal.Hand

open Cert.ReferenceIdeal Cert.ReferenceIdeal.Gen Cert.ReferenceIdeal.Read
open Idealize.ShloMosaic Idealize.ShloMosaic.TcCoe Idealize.SL.Sem

/-- The reference's last stage, at the exact instance, is the logits of its two arguments. -/
theorem result_eq (x0 : (⟨S4096x512, .f32⟩ : BufTy).Contents (Elt Ideal)) (x1 : (⟨S12500x512, .f32⟩ : BufTy).Contents (Elt Ideal)) :
    val_main_v1 (F := Ideal) x0 x1 = Cert.Spec.logits x0 x1 := by
  funext i
  have ew : ∀ k : Fin 512, idx_main_v0 (ridx_main_v1 i k) = Cert.Spec.wAt i k := fun k => funext fun a => by
    match a with
    | ⟨0, _⟩ => rfl
    | ⟨1, _⟩ => rfl
  rw [val_main_v1_apply]
  simp only [val_main_v0_apply, ew]
  rfl

end Cert.ReferenceIdeal.Hand

end
-- ==== Proof.lean ====
/-
  The certificate: a tiled matrix product with its left operand cast once into a scratch, against one whole matrix
  product.

  The kernel computes logits = features (4096 x 512) times the transpose of weights (12500 x 512) in thirteen stripes
  of 1024 classes. The feature matrix is fetched once and, at the first grid point, cast into a scratch that every
  later point reads; each point fetches its stripe of weight rows, casts it, multiplies and stores a 4096 x 1024
  result block; the last stripe has only 212 classes, and the pipeline cuts its fetch and its write-back at the
  arrays' ends. The reference transposes the weights and takes one product.

  Over the extended reals, with the casts the identity and a product into a zero accumulator the plain sum, both end
  with entry (r, j) at the sum over k of x(r, k) * w(j, k): the same sum, term by term, so no algebraic law and no
  finiteness of the inputs is used. The three frames: the two kernel programs by the pipeline's launch theorem over
  the body's obligation at every point, with the scratch's contents as the invariant carried across points; the
  reference by its run.
-/
import proofs.«169436_g15315853377883_cont_week2b_655_19_alg».proof.Defs
import proofs.«169436_g15315853377883_cont_week2b_655_19_alg».proof.Proof.Gen.Kernel
import proofs.«169436_g15315853377883_cont_week2b_655_19_alg».proof.Proof.Gen.KernelIdeal
import proofs.«169436_g15315853377883_cont_week2b_655_19_alg».proof.Proof.Gen.ReferenceIdeal
import proofs.«169436_g15315853377883_cont_week2b_655_19_alg».proof.Proof.Gen.Pre_finite_inputs
import proofs.«169436_g15315853377883_cont_week2b_655_19_alg».proof.Proof.Gen.ReferenceIdeal.Run
import proofs.«169436_g15315853377883_cont_week2b_655_19_alg».proof.Proof.Gen.ReferenceIdeal.Read
import proofs.«169436_g15315853377883_cont_week2b_655_19_alg».proof.Proof.FrameBits
import proofs.«169436_g15315853377883_cont_week2b_655_19_alg».proof.Proof.ValueIdeal
import proofs.«169436_g15315853377883_cont_week2b_655_19_alg».proof.Proof.Reference

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with their result at the logits of the (agreeing) arguments. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Hand.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
